-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S10000x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![51], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Layer.lean ====
/-
  One graph-convolution layer over the extended reals, as ONE function of its four argument arrays.

  With node features `X` (10000 × 128), dense adjacency `A` (10000 × 10000), residual input `H` (10000 × 128)
  and weights `W` (128 × 128), the layer's entry at node `r` and feature `c` is

      max ( (∑ₖ A r k · (∑ⱼ X k j · W j c)) · ½ + H r c · ½ , 0 ),

  the inner sum being the projected features `X·W` ("support"), the outer one their aggregation over the
  neighbours, then the residual mix with both weights one half, then the rectifier. The two sums are kept nested
  exactly as written: no factor is moved across a sum, so nothing here needs the entries to be finite.
  The two float literals stay as their words; the same words appear on both sides of the comparison and are never
  evaluated.
-/
import Idealize.ShloMosaic.PureOps.Ideal
import Idealize.ShloMosaic.Lib.ValueIdx

noncomputable section

namespace GcnLayer

open Idealize.ShloMosaic Idealize.ShloMosaic.ValueIdx

/-- The shapes of the arrays: features and result, adjacency, weights. -/
abbrev Feat : Shape := ⟨2, ![10000, 128]⟩
abbrev Adj : Shape := ⟨2, ![10000, 10000]⟩
abbrev Wt : Shape := ⟨2, ![128, 128]⟩

/-- The mixing weight (the word of one half) and the rectifier's floor (the zero word), as extended reals. -/
abbrev half : EReal := Ideal.ofBits .f32 0x3F000000#32
abbrev floor0 : EReal := Ideal.ofBits .f32 0x00000000#32

/-- The projected features `X·W`: entry (k, c) is `∑ⱼ X k j · W j c`. -/
def support (x : FVec Ideal Feat .f32) (w : FVec Ideal Wt .f32) : FVec Ideal Feat .f32 :=
  fun i => ∑ j : Fin 128, x (ix2 (i 0) j) * w (ix2 j (i 1))

/-- Row `r` of the adjacency against column `c` of a feature array `s`: `∑ₖ A r k · s k c`. -/
def aggregate (a : FVec Ideal Adj .f32) (s : FVec Ideal Feat .f32) (r : Fin 10000) (c : Fin 128) : EReal :=
  ∑ k : Fin 10000, a (ix2 r k) * s (ix2 k c)

/-- The residual mix and the rectifier at one entry: `max (g · ½ + h · ½, 0)`. -/
def mixRelu (g h : EReal) : EReal := max (g * half + h * half) floor0

/-- The whole layer, index by index. -/
def layer (x : FVec Ideal Feat .f32) (a : FVec Ideal Adj .f32) (h : FVec Ideal Feat .f32) (w : FVec Ideal Wt .f32) :
    FVec Ideal Feat .f32 :=
  fun i => mixRelu (aggregate a (support x w) (i 0) (i 1)) (h i)

end GcnLayer

end
-- ==== Proof.ReferenceLayer.lean ====
/-
  The reference program's result IS the layer.

  The reference computes `X·W` and then `A·(X·W)` by two host matrix products, multiplies by one half, adds
  the residual input times one half, and takes the maximum with zero. Read at an index, each matrix product is the
  sum over its one contracted coordinate of the products of the operands' entries, so the composed stages are the
  layer's nested sums verbatim; the only work is to identify the operand indices the stages name with the pairs
  (row, k), (k, column).
-/
import proofs.«144673_g12515534700681_retrytranche1_936_28_alg».proof.Proof.Gen.ReferenceIdeal.Read
import proofs.«144673_g12515534700681_retrytranche1_936_28_alg».proof.Proof.Layer

noncomputable section

namespace Cert.ReferenceIdeal.RefLayer

open Cert.ReferenceIdeal Cert.ReferenceIdeal.Read Idealize.ShloMosaic Idealize.ShloMosaic.ValueIdx

/-- The operand indices of the first product `X·W` at result index `i` and contracted coordinate `j`: (row, j) and (j, column). -/
theorem lidx0 (i : S10000x128.Idx) (j : Fin 128) : lidx_main_v0 i j = ix2 (i 0) j :=
  funext fun a => by match a with | ⟨0, _⟩ => rfl | ⟨1, _⟩ => rfl
theorem ridx0 (i : S10000x128.Idx) (j : Fin 128) : ridx_main_v0 i j = ix2 j (i 1) :=
  funext fun a => by match a with | ⟨0, _⟩ => rfl | ⟨1, _⟩ => rfl
/-- … and of the second product `A·(X·W)` at contracted coordinate `k`: (row, k) and (k, column). -/
theorem lidx1 (i : S10000x128.Idx) (k : Fin 10000) : lidx_main_v1 i k = ix2 (i 0) k :=
  funext fun a => by match a with | ⟨0, _⟩ => rfl | ⟨1, _⟩ => rfl
theorem ridx1 (i : S10000x128.Idx) (k : Fin 10000) : ridx_main_v1 i k = ix2 k (i 1) :=
  funext fun a => by match a with | ⟨0, _⟩ => rfl | ⟨1, _⟩ => rfl

/-- The first stage is the projected features. -/
theorem stage0_eq (x : FVec Ideal S10000x128 .f32) (w : FVec Ideal S128x128 .f32) :
    val_main_v0 (F := Ideal) x w = GcnLayer.support x w := by
  funext i
  rw [val_main_v0_apply]
  unfold GcnLayer.support
  simp only [lidx0, ridx0]
  rfl

/-- The last stage — the reference's result — is the layer of the four arguments. -/
theorem result_eq (x : FVec Ideal S10000x128 .f32) (a : FVec Ideal S10000x10000 .f32) (h : FVec Ideal S10000x128 .f32)
    (w : FVec Ideal S128x128 .f32) :
    val_main_v7 (F := Ideal) x a h w = GcnLayer.layer x a h w := by
  funext i
  rw [val_main_v7_apply, val_main_v6_apply, val_main_v3_apply, val_main_v5_apply, val_main_v1_apply, val_main_v2_apply,
    val_main_v4_apply, val_main_call0_v0_apply, val_main_cst_apply, val_main_cst_0_apply, val_main_call0_cst_apply, stage0_eq]
  simp only [lidx1, ridx1, Ideal.maximumf_def, Ideal.addf_def, Ideal.mulf_def, Ideal.ofBits_def]
  rfl

end Cert.ReferenceIdeal.RefLayer

end
-- ==== Proof.KernelCases.lean ====
/-
  What each of the kernel's two control cases leaves behind, as a value.

  At the grid's first point the body multiplies the whole feature array by the whole weight array and stores the
  product into the scratch buffer that is carried to the later points; the output block is not touched there. At every
  later point the body reads one block of adjacency rows, the carried scratch and one block of residual rows, and
  stores the mixed and rectified block into the output's staging buffer; the scratch is left as it was. Each store
  covers its whole buffer, and each load reads a whole buffer, so what a case leaves is its one store's payload of
  the buffers' contents.
-/
import proofs.«144673_g12515534700681_retrytranche1_936_28_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

/-- The zero offsets of a whole-buffer access, as the constant function. -/
theorem hz : (![0, 0] : Fin 2 → Nat) = fun _ => 0 := funext fun a => by fin_cases a <;> rfl

/-- FIRST POINT: the scratch ends holding the product of the feature block and the weight block (the first
    payload), whatever it held before. -/
theorem scratch_first (c : Dev nD) (i : grid0.Coords) (a1 : Memref sig .tc .vmem S10000x128 .f32) (h1 : a1.IsWhole)
    (a2 : Memref sig .tc .vmem S128x128 .f32) (h2 : a2.IsWhole) (a3 : Memref sig .tc .vmem S200x10000 .f32) (h3 : a3.IsWhole)
    (a4 : Memref sig .tc .vmem S200x128 .f32) (h4 : a4.IsWhole) (a5 : Memref sig .tc .vmem S200x128 .f32) (h5 : a5.IsWhole)
    (a6 : Memref sig .tc .vmem S10000x128 .f32) (h6 : a6.IsWhole) (hc0 : cond0_0 i) (hc1 : ¬cond0_1 i)
    (x0 : Vec F S10000x128 .f32) (x1 : Vec F S128x128 .f32) (x2 : Vec F S200x10000 .f32) (x3 : Vec F S200x128 .f32) :
    sout0_A_0 c i a1 h1 a2 h2 a3 h3 a4 h4 a5 h5 a6 h6 hc0 hc1 x0 x1 x2 x3 = k0_pay1 x0 x1 := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  rw [View.canon_unit_zero hz]
  simp only [View.readAt_eq_ld, h1.read_unread, h2.read_unread, View.ld_unit_zero (S := S10000x128) hz,
    View.ld_unit_zero (S := S128x128) hz]

/-- LATER POINTS: the output's staging buffer ends holding the second payload of the adjacency block, the carried
    scratch and the residual block, whatever it held before. -/
theorem out_later (c : Dev nD) (i : grid0.Coords) (a1 : Memref sig .tc .vmem S10000x128 .f32) (h1 : a1.IsWhole)
    (a2 : Memref sig .tc .vmem S128x128 .f32) (h2 : a2.IsWhole) (a3 : Memref sig .tc .vmem S200x10000 .f32) (h3 : a3.IsWhole)
    (a4 : Memref sig .tc .vmem S200x128 .f32) (h4 : a4.IsWhole) (a5 : Memref sig .tc .vmem S200x128 .f32) (h5 : a5.IsWhole)
    (a6 : Memref sig .tc .vmem S10000x128 .f32) (h6 : a6.IsWhole) (hc0 : ¬cond0_0 i) (hc1 : cond0_1 i)
    (x0 : Vec F S10000x128 .f32) (x1 : Vec F S128x128 .f32) (x2 : Vec F S200x10000 .f32) (x3 : Vec F S200x128 .f32)
    (xs : Vec F S10000x128 .f32) :
    out0_B_4 c i a1 h1 a2 h2 a3 h3 a4 h4 a5 h5 a6 h6 hc0 hc1 x0 x1 x2 x3 xs = k0_pay2 x2 xs x3 := by
  unfold out0_B_4
  rw [View.read_writes_eq_canon _ _ _ (cover0_B_4 c i a1 h1 a2 h2 a3 h3 a4 h4 a5 h5 a6 h6 hc0 hc1 x0 x1 x2 x3 xs)]
  unfold kernelRun0_B
  dsimp only
  rw [View.canon_unit_zero hz]
  simp only [View.readAt_eq_ld, h3.read_unread, h4.read_unread, h6.read_unread, View.ld_unit_zero (S := S200x10000) hz,
    View.ld_unit_zero (S := S200x128) hz, View.ld_unit_zero (S := S10000x128) hz]

end Cert.KernelIdeal.Cases

end
-- ==== Proof.KernelPayload.lean ====
/-
  The kernel body's two stored values, read over the extended reals.

  Both are built on a matrix product into the zero accumulator, which over the extended reals is the plain sum over the
  one contracted coordinate of the products of the operands' entries (adding the accumulator's zero changes nothing).
  So the value stored at the first point is the projected features `X·W` of the two blocks it loads, and the value
  stored at a later point is, at row `p` and column `q` of the block, the residual mix and rectifier applied to
  `∑ₖ a p k · s k q` — `a` the block of adjacency rows, `s` the carried scratch — and to the residual block's entry.
-/
import proofs.«144673_g12515534700681_retrytranche1_936_28_alg».proof.Proof.Gen.KernelIdeal.Skeleton
import proofs.«144673_g12515534700681_retrytranche1_936_28_alg».proof.Proof.Layer
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product of the features by the weights into the zero accumulator, at index `i`: the sum over the contracted
    coordinate `j` of `x (row, j) · w (j, column)`. -/
theorem project_apply (x : FVec Ideal S10000x128 .f32) (w : FVec Ideal S128x128 .f32) (i : S10000x128.Idx) :
    FloatOps.matmul dot_S10000x128_S128x128_S10000x128_1_0_0_1_n_n none x w (constant (F := Ideal) S10000x128 .f32 0x00000000#32) i
      = ∑ j : Fin 128, x (ix2 (i 0) j) * w (ix2 j (i 1)) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i ((contrEquiv1 dot_S10000x128_S128x128_S10000x128_1_0_0_1_n_n 128 rfl rfl).symm k) = ix2 (i 0) k := funext fun a => Fin.ext (by
    match a with
    | ⟨0, _⟩ =>
      show (dot_S10000x128_S128x128_S10000x128_1_0_0_1_n_n.lhsIdx i _ 0).val = (i 0).val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact (dot_S10000x128_S128x128_S10000x128_1_0_0_1_n_n.lhsIdx_val_of_single rfl i _).trans hk)
  have er : dot_S10000x128_S128x128_S10000x128_1_0_0_1_n_n.rhsIdx i ((contrEquiv1 dot_S10000x128_S128x128_S10000x128_1_0_0_1_n_n 128 rfl rfl).symm k) = ix2 k (i 1) := funext fun a => Fin.ext (by
    match a with
    | ⟨0, _⟩ => exact (dot_S10000x128_S128x128_S10000x128_1_0_0_1_n_n.rhsIdx_val_of_single rfl i _).trans hk
    | ⟨1, _⟩ =>
      show (dot_S10000x128_S128x128_S10000x128_1_0_0_1_n_n.rhsIdx i _ 1).val = (i 1).val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  rw [el, er]
  rfl

/-- The product of a block of adjacency rows by a feature array into the zero accumulator, at index `i` of the block:
    the sum over the contracted coordinate `k` of `a (row, k) · s (k, column)`. -/
theorem aggregate_apply (a : FVec Ideal S200x10000 .f32) (s : FVec Ideal S10000x128 .f32) (i : S200x128.Idx) :
    FloatOps.matmul dot_S200x10000_S10000x128_S200x128_1_0_0_1_n_n none a s (constant (F := Ideal) S200x128 .f32 0x00000000#32) i
      = ∑ k : Fin 10000, a (ix2 (i 0) k) * s (ix2 k (i 1)) := by
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx i ((contrEquiv1 dot_S200x10000_S10000x128_S200x128_1_0_0_1_n_n 10000 rfl rfl).symm k) = ix2 (i 0) k := funext fun a => Fin.ext (by
    match a with
    | ⟨0, _⟩ =>
      show (dot_S200x10000_S10000x128_S200x128_1_0_0_1_n_n.lhsIdx i _ 0).val = (i 0).val
      unfold DotDims.lhsIdx
      rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
      rfl
    | ⟨1, _⟩ => exact (dot_S200x10000_S10000x128_S200x128_1_0_0_1_n_n.lhsIdx_val_of_single rfl i _).trans hk)
  have er : dot_S200x10000_S10000x128_S200x128_1_0_0_1_n_n.rhsIdx i ((contrEquiv1 dot_S200x10000_S10000x128_S200x128_1_0_0_1_n_n 10000 rfl rfl).symm k) = ix2 k (i 1) := funext fun a => Fin.ext (by
    match a with
    | ⟨0, _⟩ => exact (dot_S200x10000_S10000x128_S200x128_1_0_0_1_n_n.rhsIdx_val_of_single rfl i _).trans hk
    | ⟨1, _⟩ =>
      show (dot_S200x10000_S10000x128_S200x128_1_0_0_1_n_n.rhsIdx i _ 1).val = (i 1).val
      unfold DotDims.rhsIdx
      rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
      rfl)
  rw [el, er]
  rfl

/-- THE FIRST PAYLOAD is the projected features of the two blocks it is given. -/
theorem first_eq (x : FVec Ideal S10000x128 .f32) (w : FVec Ideal S128x128 .f32) :
    k0_pay1 (F := Ideal) x w = GcnLayer.support x w := by
  funext i
  unfold k0_pay1
  simp only [shapeCast_self]
  exact project_apply x w i

/-- THE SECOND PAYLOAD at row `p`, column `q` of the block: the mix and rectifier of the adjacency row against the
    scratch's column, and of the residual block's entry. -/
theorem second_apply (a : FVec Ideal S200x10000 .f32) (s : FVec Ideal S10000x128 .f32) (h : FVec Ideal S200x128 .f32)
    (p : Fin 200) (q : Fin 128) :
    k0_pay2 (F := Ideal) a s h (ix2 p q)
      = GcnLayer.mixRelu (∑ k : Fin 10000, a (ix2 p k) * s (ix2 k q)) (h (ix2 p q)) := by
  unfold k0_pay2
  show max (FloatOps.matmul dot_S200x10000_S10000x128_S200x128_1_0_0_1_n_n none a s (constant (F := Ideal) S200x128 .f32 0x00000000#32) (ix2 p q) * GcnLayer.half
      + h (ix2 p q) * GcnLayer.half) GcnLayer.floor0 = _
  exact congrArg (fun g => max (g * GcnLayer.half + h (ix2 p q) * GcnLayer.half) GcnLayer.floor0) (aggregate_apply a s (ix2 p q))

end Cert.KernelIdeal.Payload

end
-- ==== Proof.KernelBlocks.lean ====
/-
  From blocks to the array: after the kernel's run the result array holds the layer of the four argument arrays.

  The grid has 51 points. Point 0 stages the whole feature and weight arrays and fills the scratch with their product
  `X·W`; no later point stores into the scratch, so it holds `X·W` at every point (induction on the point). Point
  `t ≥ 1` stages rows `200·(t − 1) … 200·(t − 1) + 199` of the adjacency and of the residual input and writes the
  same rows of the result: row `p` of its block is array row `200·(t − 1) + p`. The result's block is written back
  exactly at the points `t ≥ 1` (at point 0 the block index is the same as at point 1 and nothing is written back),
  and what is written back at such a point is the layer read through that block. The blocks of points 1 … 50 cover
  all 10000 rows — row `r` lies in the block of point `r / 200 + 1` — so the array ends holding the layer.
-/
import proofs.«144673_g12515534700681_retrytranche1_936_28_alg».proof.Proof.Gen.KernelIdeal.Value
import proofs.«144673_g12515534700681_retrytranche1_936_28_alg».proof.Proof.KernelCases
import proofs.«144673_g12515534700681_retrytranche1_936_28_alg».proof.Proof.KernelPayload
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps and the write-backs, decided over the grid -/

/-- The features' and the weights' block index is always (0, 0); the adjacency's, the residual's and the result's is
    (t − 1, 0), truncated at zero. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val - 1 ∧ win0_2.index t (1 : Fin 2) = 0
    ∧ win0_3.index t (0 : Fin 2) = t.val - 1 ∧ win0_3.index t (1 : Fin 2) = 0
    ∧ win0_4.index t (0 : Fin 2) = t.val - 1 ∧ win0_4.index t (1 : Fin 2) = 0 :=
  (by decide +kernel : ∀ t : Fin grid0.N, _)

/-- The result's block is written back exactly at the points from 1 on. -/
theorem flush_iff : ∀ t : Fin cfg0.N, (cfg0.win 4).flush t = true ↔ 1 ≤ t.val :=
  (by decide +kernel : ∀ t : Fin grid0.N, win0_4.flush t = true ↔ 1 ≤ t.val)

/-! ## The input blocks, read off the arrays -/

/-- The features' block at any point is the whole feature array. -/
theorem feat_block (c : Dev nD) (t : Fin cfg0.N) :
    (iblk m c 0 t : Vec Ideal S10000x128 .f32) = V m c main_arg0 := by
  obtain ⟨e0, e1, -⟩ := index_facts t
  funext j
  unfold iblk
  rw [View.read_apply]
  show V m c main_arg0 _ = V m c main_arg0 j
  congr 1
  funext a
  apply Fin.ext
  match a with
  | ⟨0, _⟩ => show win0_0.index t 0 * 10000 + 1 * (j 0).val = (j 0).val; rw [e0]; omega
  | ⟨1, _⟩ => show win0_0.index t 1 * 128 + 1 * (j 1).val = (j 1).val; rw [e1]; omega

/-- The weights' block at any point is the whole weight array. -/
theorem wt_block (c : Dev nD) (t : Fin cfg0.N) :
    (iblk m c 1 t : Vec Ideal S128x128 .f32) = V m c main_arg3 := by
  obtain ⟨-, -, e0, e1, -⟩ := index_facts t
  funext j
  unfold iblk
  rw [View.read_apply]
  show V m c main_arg3 _ = V m c main_arg3 j
  congr 1
  funext a
  apply Fin.ext
  match a with
  | ⟨0, _⟩ => show win0_1.index t 0 * 128 + 1 * (j 0).val = (j 0).val; rw [e0]; omega
  | ⟨1, _⟩ => show win0_1.index t 1 * 128 + 1 * (j 1).val = (j 1).val; rw [e1]; omega

/-- The array row that row `p` of the block of point `t ≥ 1` is: `200·(t − 1) + p`. -/
def rowOf (t : Fin cfg0.N) (p : Fin 200) : Fin 10000 :=
  ⟨200 * (t.val - 1) + p.val, by
    have h : t.val < 51 := lt_of_lt_of_eq t.isLt (show cfg0.N = 51 from N_0)
    have := p.isLt
    omega⟩

/-- The adjacency's block at point `t`, at (p, k): the adjacency at (row of p, k). -/
theorem adj_block (c : Dev nD) (t : Fin cfg0.N) (p : Fin 200) (k : Fin 10000) :
    (iblk m c 2 t : Vec Ideal S200x10000 .f32) (ix2 p k) = V m c main_arg1 (ix2 (rowOf t p) k) := by
  obtain ⟨-, -, -, -, e0, e1, -⟩ := index_facts t
  unfold iblk
  rw [View.read_apply]
  show V m c main_arg1 _ = V m c main_arg1 _
  congr 1
  funext a
  apply Fin.ext
  match a with
  | ⟨0, _⟩ => show win0_2.index t 0 * 200 + 1 * p.val = 200 * (t.val - 1) + p.val; rw [e0]; omega
  | ⟨1, _⟩ => show win0_2.index t 1 * 10000 + 1 * k.val = k.val; rw [e1]; omega

/-- The residual's block at point `t`, at (p, q): the residual input at (row of p, q). -/
theorem res_block (c : Dev nD) (t : Fin cfg0.N) (p : Fin 200) (q : Fin 128) :
    (iblk m c 3 t : Vec Ideal S200x128 .f32) (ix2 p q) = V m c main_arg2 (ix2 (rowOf t p) q) := by
  obtain ⟨-, -, -, -, -, -, e0, e1, -⟩ := index_facts t
  unfold iblk
  rw [View.read_apply]
  show V m c main_arg2 _ = V m c main_arg2 _
  congr 1
  funext a
  apply Fin.ext
  match a with
  | ⟨0, _⟩ => show win0_3.index t 0 * 200 + 1 * p.val = 200 * (t.val - 1) + p.val; rw [e0]; omega
  | ⟨1, _⟩ => show win0_3.index t 1 * 128 + 1 * q.val = q.val; rw [e1]; omega

/-- Where an element of the result's block at point `t` sits in the result array: (row of its row, its column). -/
theorem out_emb (t : Fin cfg0.N) (y : S200x128.Idx) :
    ((cfg0.win 4).blk t).view.emb y = ix2 (rowOf t (y 0)) (y 1) := by
  obtain ⟨-, -, -, -, -, -, -, -, e0, e1⟩ := index_facts t
  funext a
  apply Fin.ext
  match a with
  | ⟨0, _⟩ => show win0_4.index t 0 * 200 + 1 * (y 0).val = 200 * (t.val - 1) + (y 0).val; rw [e0]; omega
  | ⟨1, _⟩ => show win0_4.index t 1 * 128 + 1 * (y 1).val = (y 1).val; rw [e1]; omega

/-! ## The carried scratch holds the projected features at every point -/

/-- The projected features of the argument arrays as the region finds them. -/
abbrev projected (c : Dev nD) : FVec Ideal S10000x128 .f32 := GcnLayer.support (V m c main_arg0) (V m c main_arg3)

/-- At the first point the scratch is filled with them. -/
theorem scratch_at_first (c : Dev nD) (t : Fin cfg0.N) (h0 : t.val % 51 = 0) (h1 : ¬1 ≤ t.val) :
    (outsAt0 m c t.val t.isLt).2 = projected m c := by
  rw [outsAt0_A m c t h0 h1]
  dsimp only
  refine (Cases.scratch_first c (grid0.coords t) (ms0_0 t) (hs0_0 t) (ms0_1 t) (hs0_1 t) (ms0_2 t) (hs0_2 t) (ms0_3 t) (hs0_3 t)
    (ms0_4 t) (hs0_4 t) scM0_0 (Memref.isWhole_whole _) ((hcond0_0 t).mpr h0) (fun h => h1 ((hcond0_1 t).mp h))
    (iblk m c 0 t) (iblk m c 1 t) (iblk m c 2 t) (iblk m c 3 t)).trans ?_
  exact (congrArg₂ (k0_pay1 (F := Ideal)) (feat_block m c t) (wt_block m c t)).trans (Payload.first_eq _ _)

/-- … and every later point leaves it as it was: by induction on the point. -/
theorem scratch_eq (c : Dev nD) : ∀ (n : ℕ) (hn : n < cfg0.N), (outsAt0 m c n hn).2 = projected m c
  | 0, hn => scratch_at_first m c ⟨0, hn⟩ rfl (by show ¬1 ≤ 0; decide)
  | n + 1, hn => by
    have hN : n + 1 < 51 := lt_of_lt_of_eq hn (show cfg0.N = 51 from N_0)
    rw [outsAt0_B m c ⟨n + 1, hn⟩ (by dsimp only; omega) (by dsimp only; omega)]
    exact scratch_eq c n _

/-! ## What a point writes back, and the array after the run -/

/-- The layer of the argument arrays as the region finds them. -/
abbrev result (c : Dev nD) : FVec Ideal S10000x128 .f32 :=
  GcnLayer.layer (V m c main_arg0) (V m c main_arg1) (V m c main_arg2) (V m c main_arg3)

/-- The block a later point computes, at (p, q), is the layer at (row of p, q): the adjacency's row against the
    projected features' column, mixed with the residual entry, rectified. -/
theorem block_value (c : Dev nD) (t : Fin cfg0.N) (p : Fin 200) (q : Fin 128) :
    k0_pay2 (F := Ideal) (iblk m c 2 t) (projected m c) (iblk m c 3 t) (ix2 p q) = result m c (ix2 (rowOf t p) q) := by
  refine (Payload.second_apply (iblk m c 2 t) (projected m c) (iblk m c 3 t) p q).trans ?_
  show _ = GcnLayer.mixRelu (GcnLayer.aggregate (V m c main_arg1) (projected m c) (rowOf t p) q) (V m c main_arg2 (ix2 (rowOf t p) q))
  refine congrArg₂ GcnLayer.mixRelu ?_ (res_block m c t p q)
  unfold GcnLayer.aggregate
  exact Finset.sum_congr rfl fun k _ => congrArg (· * projected m c (ix2 k q)) (adj_block m c t p k)

/-- WHAT A POINT WRITES BACK, when it writes back, is the layer read through its block. -/
theorem flushed_eq (c : Dev nD) (t : Fin cfg0.N) (hf : (cfg0.win 4).flush t = true) :
    (dats m 0 c).flushed 4 t = ((cfg0.win 4).blk t).view.read (Elt Ideal) (result m c) := by
  have ht : 1 ≤ t.val := (flush_iff t).mp hf
  have hlt : t.val < 51 := lt_of_lt_of_eq t.isLt (show cfg0.N = 51 from N_0)
  have h0 : ¬t.val % 51 = 0 := by omega
  rw [Value.flushed4_B m c t h0 ht]
  rw [Cases.out_later c (grid0.coords t) (ms0_0 t) (hs0_0 t) (ms0_1 t) (hs0_1 t) (ms0_2 t) (hs0_2 t) (ms0_3 t) (hs0_3 t)
    (ms0_4 t) (hs0_4 t) scM0_0 (Memref.isWhole_whole _) (fun h => h0 ((hcond0_0 t).mp h)) ((hcond0_1 t).mpr ht)
    (iblk m c 0 t) (iblk m c 1 t) (iblk m c 2 t) (iblk m c 3 t)
    (outsAt0 m c (t.val - 1) (Nat.lt_of_le_of_lt (Nat.sub_le _ _) t.isLt)).2]
  rw [scratch_eq m c (t.val - 1) _]
  funext y
  rw [View.read_apply, out_emb t y]
  show k0_pay2 (F := Ideal) (iblk m c 2 t) (projected m c) (iblk m c 3 t) y = _
  exact (congrArg (k0_pay2 (F := Ideal) (iblk m c 2 t) (projected m c) (iblk m c 3 t)) (eq_ix2 y)).trans
    (block_value m c t (y 0) (y 1))

/-- An index of the result array is in point `t`'s block iff each coordinate is in the block's range on its axis. -/
theorem mem_blk (t : Fin cfg0.N) (i : S10000x128.Idx) :
    i ∈ ((cfg0.win 4).blk t).view.set ↔ ∀ a : Fin 2, win0_4.index t a * S200x128.size a ≤ (i a).val
      ∧ (i a).val < win0_4.index t a * S200x128.size a + S200x128.size a := by
  show i ∈ ((View.whole main_v0).slice (win0_4.rect t)).set ↔ _
  rw [View.set_slice_whole, Rect.mem_set_unit]
  exact Iff.rfl

/-- Every index of the result array is in the block of a point that writes back: row `r` in that of point `r / 200 + 1`. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 51 := N_0
  obtain ⟨t, ht⟩ : ∃ t : Fin cfg0.N, t.val = (i 0).val / 200 + 1 := ⟨⟨(i 0).val / 200 + 1, by rw [hN]; omega⟩, rfl⟩
  obtain ⟨-, -, -, -, -, -, -, -, e0, e1⟩ := index_facts t
  refine ⟨t, (flush_iff t).mpr (by omega), ?_⟩
  rw [mem_blk]
  intro a
  match a with
  | ⟨0, _⟩ =>
    show win0_4.index t 0 * 200 ≤ (i 0).val ∧ (i 0).val < win0_4.index t 0 * 200 + 200
    rw [e0]; omega
  | ⟨1, _⟩ =>
    show win0_4.index t 1 * 128 ≤ (i 1).val ∧ (i 1).val < win0_4.index t 1 * 128 + 128
    rw [e1]; omega

/-- THE ARRAY AFTER THE RUN is the layer of the argument arrays. -/
theorem final (c : Dev nD) : (dats m 0 c).arrAt 4 cfg0.N = result m c :=
  (dats m 0 c).arrAt_eq_of_cover 4 (result m c) (fun t hf => flushed_eq m c t hf) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.lean ====
/-
  The kernel and its reference compute one graph-convolution layer, and compute it by the same nested sums.

  With features `X`, dense adjacency `A`, residual input `H` and weights `W`, both programs end with the result array at

      max ( (∑ₖ A r k · (∑ⱼ X k j · W j c)) · ½ + H r c · ½ , 0 )        at row `r`, column `c`,

  read over the extended reals (Proof/Layer.lean). The reference does it by two whole matrix products and three
  elementwise operations (Proof/ReferenceLayer.lean). The kernel forms `X·W` once, at the first grid point, in a
  scratch buffer it carries to the later points, and at each later point multiplies one block of 200 adjacency rows by
  that scratch, mixes in the matching residual rows and rectifies (Proof/KernelCases.lean, Proof/KernelPayload.lean);
  the blocks of the 50 later points tile the 10000 rows, so the result array ends holding the layer
  (Proof/KernelBlocks.lean). A row block of a matrix product is the product of the row block, and neither side
  regroups a sum or moves a factor across one, so the equality needs no finiteness of the inputs: the precondition is
  never opened. The three frames are the programs' runs with the result forgotten; the idealization rewrote no
  operation of the kernel, so there is nothing to preserve.
-/
import proofs.«144673_g12515534700681_retrytranche1_936_28_alg».proof.Defs
import proofs.«144673_g12515534700681_retrytranche1_936_28_alg».proof.Proof.Gen.Kernel
import proofs.«144673_g12515534700681_retrytranche1_936_28_alg».proof.Proof.Gen.Kernel.Frame
import proofs.«144673_g12515534700681_retrytranche1_936_28_alg».proof.Proof.Gen.KernelIdeal
import proofs.«144673_g12515534700681_retrytranche1_936_28_alg».proof.Proof.Gen.KernelIdeal.Frame
import proofs.«144673_g12515534700681_retrytranche1_936_28_alg».proof.Proof.Gen.ReferenceIdeal
import proofs.«144673_g12515534700681_retrytranche1_936_28_alg».proof.Proof.Gen.Pre_finite_inputs
import proofs.«144673_g12515534700681_retrytranche1_936_28_alg».proof.Proof.Gen.KernelIdeal.Value
import proofs.«144673_g12515534700681_retrytranche1_936_28_alg».proof.Proof.Gen.ReferenceIdeal.Run
import proofs.«144673_g12515534700681_retrytranche1_936_28_alg».proof.Proof.Gen.ReferenceIdeal.Read
import proofs.«144673_g12515534700681_retrytranche1_936_28_alg».proof.Proof.ReferenceLayer
import proofs.«144673_g12515534700681_retrytranche1_936_28_alg».proof.Proof.KernelBlocks
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories that agree on the four arguments both programs end with the result array at the layer of those
    arguments: the kernel by its blocks, the reference by its stages. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefLayer.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
